-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096 : Shape := ⟨1, ![4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S4096, .f32⟩
  | .local _ .vmem, ⟨3, _⟩ => ⟨S4096, .f32⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .i1⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S_, .f32⟩
  | .hbm, ⟨49, _⟩ => ⟨S4x4096x4096, .f32⟩
  | .hbm, ⟨50, _⟩ => ⟨S4x4096x4096, .f32⟩
  | .hbm, ⟨51, _⟩ => ⟨S_, .f32⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x4096, .f32⟩
  | .hbm, ⟨72, _⟩ => ⟨S4x4096x4096, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x1, .f32⟩
  | .hbm, ⟨77, _⟩ => ⟨S4x4096x4096, .f32⟩
  | .hbm, ⟨78, _⟩ => ⟨S4x4096x4096, .f32⟩
  | .hbm, ⟨79, _⟩ => ⟨S1x1x4096, .f32⟩
  | .hbm, ⟨80, _⟩ => ⟨S4x4096x4096, .f32⟩
  | .hbm, ⟨81, _⟩ => ⟨S4x4096x4096, .f32⟩
  | .hbm, ⟨82, _⟩ => ⟨S1x1x4096, .f32⟩
  | .hbm, ⟨83, _⟩ => ⟨S4x4096x4096, .f32⟩
  | .hbm, ⟨84, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev main_cst_9 : Ref sig .tc := ⟨.hbm, 38, rfl⟩
abbrev main_v20 : Ref sig .tc := ⟨.hbm, 39, rfl⟩
abbrev main_v21 : Ref sig .tc := ⟨.hbm, 40, rfl⟩
abbrev main_cst_10 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_11 : Ref sig .tc := ⟨.hbm, 45, rfl⟩
abbrev main_v25 : Ref sig .tc := ⟨.hbm, 46, rfl⟩
abbrev main_v26 : Ref sig .tc := ⟨.hbm, 47, rfl⟩
abbrev main_cst_12 : Ref sig .tc := ⟨.hbm, 48, rfl⟩
abbrev main_v27 : Ref sig .tc := ⟨.hbm, 49, rfl⟩
abbrev main_v28 : Ref sig .tc := ⟨.hbm, 50, rfl⟩
abbrev main_cst_13 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_14 : Ref sig .tc := ⟨.hbm, 56, rfl⟩
abbrev main_v33 : Ref sig .tc := ⟨.hbm, 57, rfl⟩
abbrev main_v34 : Ref sig .tc := ⟨.hbm, 58, rfl⟩
abbrev main_cst_15 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_16 : Ref sig .tc := ⟨.hbm, 65, rfl⟩
abbrev main_v40 : Ref sig .tc := ⟨.hbm, 66, rfl⟩
abbrev main_v41 : Ref sig .tc := ⟨.hbm, 67, rfl⟩
abbrev main_cst_17 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_18 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.Quantizer.lean ====
/-
  The spike quantizer on one extended real.

  An input `x` is clipped to `[-500, 500]`; its magnitude `a` is quantized on the range `v = 10` when `a < 10` and
  `v = 500` otherwise: `⌊a / v · 2¹⁶⌋ / 2¹⁶ · v`, capped at `v · (1 - 2⁻¹⁶)`; the result carries the sign of the clipped
  input. One program chooses the range first and quantizes once; the other quantizes on both ranges, after taking
  `max a 0`, with the two caps written as the numbers `10 · (1 - 2⁻¹⁶)` and `500 · (1 - 2⁻¹⁶)`, and chooses between
  the two results. Both are the one function `spike` on every extended real: a magnitude is not negative, the two caps
  are exact products of f32 numbers, and a choice commutes with what is computed from the chosen value.
-/
import Idealize.ShloMosaic.PureOps.Ideal
import Idealize.ShloMosaic.PureOps.Ideal.Laws

noncomputable section

namespace Cert.SpikeNorm

open Idealize.ShloMosaic

/-! ## The numbers the programs write as f32 words -/

/-- `-500`, the lower clip bound. -/
abbrev lo : EReal := Ideal.ofBits .f32 0xC3FA0000#32
/-- `500`, the upper clip bound and the wide quantization range. -/
abbrev hi : EReal := Ideal.ofBits .f32 0x43FA0000#32
/-- `10`, the threshold and the narrow quantization range. -/
abbrev ten : EReal := Ideal.ofBits .f32 0x41200000#32
/-- `2¹⁶`, the number of quantization levels. -/
abbrev levels : EReal := Ideal.ofBits .f32 0x47800000#32
/-- `1 - 2⁻¹⁶`, the cap as a fraction of the range. -/
abbrev belowOne : EReal := Ideal.ofBits .f32 0x3F7FFF00#32
/-- `10 · (1 - 2⁻¹⁶)`, the narrow range's cap as one number. -/
abbrev capTen : EReal := Ideal.ofBits .f32 0x411FFF60#32
/-- `500 · (1 - 2⁻¹⁶)`, the wide range's cap as one number. -/
abbrev capHi : EReal := Ideal.ofBits .f32 0x43F9FF06#32

theorem ten_eq : ten = ((10 : ℝ) : EReal) := by
  simp [Ideal.ofBits, Ideal.ieee, -EReal.coe_mul]; norm_num
theorem hi_eq : hi = ((500 : ℝ) : EReal) := by
  simp [Ideal.ofBits, Ideal.ieee, -EReal.coe_mul]; norm_num
theorem belowOne_eq : belowOne = ((65535 / 65536 : ℝ) : EReal) := by
  simp [Ideal.ofBits, Ideal.ieee, -EReal.coe_mul]; norm_num
theorem capTen_eq : capTen = ((655350 / 65536 : ℝ) : EReal) := by
  simp [Ideal.ofBits, Ideal.ieee, -EReal.coe_mul]; norm_num
theorem capHi_eq : capHi = ((32767500 / 65536 : ℝ) : EReal) := by
  simp [Ideal.ofBits, Ideal.ieee, -EReal.coe_mul]; norm_num

/-- The narrow cap is the product of the range and the fraction, exactly. -/
theorem ten_mul_belowOne : ten * belowOne = capTen := by
  rw [ten_eq, belowOne_eq, capTen_eq, ← EReal.coe_mul]
  exact congrArg (fun r : ℝ => (r : EReal)) (by norm_num)
/-- So is the wide cap. -/
theorem hi_mul_belowOne : hi * belowOne = capHi := by
  rw [hi_eq, belowOne_eq, capHi_eq, ← EReal.coe_mul]
  exact congrArg (fun r : ℝ => (r : EReal)) (by norm_num)

/-! ## The quantizer -/

/-- The input clipped to `[-500, 500]`. -/
def clip (x : EReal) : EReal := min hi (max lo x)

/-- The magnitude `max y (-y)`. -/
def mag (y : EReal) : EReal := max y (-y)

/-- A magnitude is not negative. -/
theorem mag_nonneg (y : EReal) : 0 ≤ mag y := by
  unfold mag
  rcases le_total 0 y with h | h
  · exact le_max_of_le_left h
  · exact le_max_of_le_right (EReal.neg_nonneg.mpr h)

/-- The quantization range of a magnitude: `10` below `10`, else `500`. -/
def range (a : EReal) : EReal := Scalar.select (Ideal.cmp .olt a ten) ten hi

/-- `a` floored to the grid of `2¹⁶` levels on the range `v`, capped at `cap`. -/
def onGrid (a v cap : EReal) : EReal :=
  min (Ideal.div (Ideal.liftRound Int.floor (Ideal.div a v * levels)) levels * v) cap

/-- The quantized spike of one input: its clipped magnitude on the grid of its range, capped at the range's
    fraction `1 - 2⁻¹⁶`, with the clipped input's sign. -/
def spike (x : EReal) : EReal :=
  onGrid (mag (clip x)) (range (mag (clip x))) (range (mag (clip x)) * belowOne) * Ideal.sign (clip x)

/-- The spelling that chooses the range first and takes the sign by comparisons: `1` with the sign of the clipped
    input where its magnitude is above zero, the clipped input itself (zero) elsewhere. -/
def spikeRangeFirst (x : EReal) : EReal :=
  onGrid (mag (clip x)) (range (mag (clip x))) (range (mag (clip x)) * belowOne)
    * Scalar.select (Ideal.cmp .ogt (mag (clip x)) (Ideal.ofBits .f32 0x00000000#32))
        (Scalar.select (Ideal.cmp .olt (clip x) (Ideal.ofBits .f32 0x00000000#32)) (Ideal.ofBits .f32 0xBF800000#32)
          (Ideal.ofBits .f32 0x3F800000#32)) (clip x)

/-- The spelling that quantizes `max a 0` on both ranges, each with its cap as one number, and chooses a result. -/
def spikeBothRanges (x : EReal) : EReal :=
  Scalar.select (Ideal.cmp .olt (mag (clip x)) ten)
      (onGrid (max (mag (clip x)) (Ideal.ofBits .f32 0x00000000#32)) ten capTen)
      (onGrid (max (mag (clip x)) (Ideal.ofBits .f32 0x00000000#32)) hi capHi)
    * Ideal.sign (clip x)

/-- The comparison-spelt sign is the sign. -/
theorem spikeRangeFirst_eq (x : EReal) : spikeRangeFirst x = spike x :=
  congrArg (fun s => onGrid (mag (clip x)) (range (mag (clip x))) (range (mag (clip x)) * belowOne) * s)
    (Ideal.jnp_sign_eq_sign_f32 (clip x))

/-- Quantizing on both ranges and choosing is quantizing on the chosen range. -/
theorem spikeBothRanges_eq (x : EReal) : spikeBothRanges x = spike x := by
  unfold spikeBothRanges spike range
  rw [Ideal.ofBits_zero_f32, max_eq_left (mag_nonneg (clip x))]
  by_cases h : Ideal.cmp .olt (mag (clip x)) ten = 1
  · simp only [Scalar.select, h, if_true, ten_mul_belowOne]
  · simp only [Scalar.select, h, if_false, hi_mul_belowOne]

end Cert.SpikeNorm

end
-- ==== Proof.RowNorm.lean ====
/-
  The result both programs compute, as one function of the three argument arrays.

  Every row of 4096 inputs is spiked entry by entry (`spike`, Proof/Quantizer.lean) and normalized over the row:
  with `μ` the row's mean and `σ²` the mean of the squared deviations, entry `q` of the result is
  `(s q - μ) · (σ² + ε)^(-1/2) · w q + b q`. The mean is the row's sum divided by 4096. The function is stated twice,
  over the array of 4 × 4096 rows and over the same rows laid as one matrix of 16384 rows; row `(i, j)` of the first is
  row `4096 i + j` of the second.
-/
import proofs.«107565_j77360950935786_2_alg».proof.Proof.Quantizer
import Idealize.ShloMosaic.Lib.ValueIdx

noncomputable section

open scoped BigOperators

namespace Cert.SpikeNorm

open Idealize.ShloMosaic Idealize.ShloMosaic.ValueIdx

/-- `4096`, the length of a row. -/
abbrev rowLen : EReal := Ideal.ofBits .f32 0x45800000#32
/-- The variance's offset `ε`. -/
abbrev eps : EReal := Ideal.ofBits .f32 0x3727C5AC#32

/-- A row's mean: its sum over 4096. -/
def rowMean {n : ℕ} (s : Fin n → EReal) : EReal := Ideal.div (∑ d : Fin n, s d) rowLen

/-- An entry's deviation from its row's mean. -/
def dev {n : ℕ} (s : Fin n → EReal) (q : Fin n) : EReal := s q - rowMean s

/-- A row's variance: the mean of the squared deviations. -/
def rowVar {n : ℕ} (s : Fin n → EReal) : EReal := Ideal.div (∑ d : Fin n, dev s d * dev s d) rowLen

/-- Entry `q` of the normalized row `s`, scaled by `w` and shifted by `b`. -/
def normRow {n : ℕ} (s w b : Fin n → EReal) (q : Fin n) : EReal :=
  dev s q * Ideal.rsqrt (rowVar s + eps) * w q + b q

/-- The result over the array of `4 × 4096` rows. -/
def result3 (x : (⟨3, ![4, 4096, 4096]⟩ : Shape).Idx → EReal) (w b : (⟨1, ![4096]⟩ : Shape).Idx → EReal) :
    (⟨3, ![4, 4096, 4096]⟩ : Shape).Idx → EReal := fun idx =>
  normRow (fun d : Fin 4096 => spike (x (ix3 (n0 := 4) (n1 := 4096) (idx 0) (idx 1) d)))
    (fun d : Fin 4096 => w (ix1 d)) (fun d : Fin 4096 => b (ix1 d)) (idx 2)

theorem result3_apply (x : (⟨3, ![4, 4096, 4096]⟩ : Shape).Idx → EReal) (w b : (⟨1, ![4096]⟩ : Shape).Idx → EReal)
    (i : Fin 4) (j k : Fin 4096) :
    result3 x w b (ix3 i j k)
      = normRow (fun d : Fin 4096 => spike (x (ix3 i j d))) (fun d : Fin 4096 => w (ix1 d)) (fun d : Fin 4096 => b (ix1 d)) k :=
  rfl

/-- The result over the matrix of `16384` rows. -/
def result2 (x : (⟨2, ![16384, 4096]⟩ : Shape).Idx → EReal) (w b : (⟨1, ![4096]⟩ : Shape).Idx → EReal) :
    (⟨2, ![16384, 4096]⟩ : Shape).Idx → EReal := fun idx =>
  normRow (fun d : Fin 4096 => spike (x (ix2 (n0 := 16384) (idx 0) d)))
    (fun d : Fin 4096 => w (ix1 d)) (fun d : Fin 4096 => b (ix1 d)) (idx 1)

theorem result2_apply (x : (⟨2, ![16384, 4096]⟩ : Shape).Idx → EReal) (w b : (⟨1, ![4096]⟩ : Shape).Idx → EReal)
    (r : Fin 16384) (k : Fin 4096) :
    result2 x w b (ix2 r k)
      = normRow (fun d : Fin 4096 => spike (x (ix2 r d))) (fun d : Fin 4096 => w (ix1 d)) (fun d : Fin 4096 => b (ix1 d)) k :=
  rfl

end Cert.SpikeNorm

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.KernelTile.lean ====
/-
  What the kernel body stores, read at one entry of a tile.

  The body loads a tile of 256 rows of the input, the scale and the shift vectors, and stores one tile of the
  result. Its arithmetic is three pure terms: the spiked tile less each row's mean, that tile's row variances, and the
  normalized, scaled and shifted tile. A row's sum is a lane sum over the tile's second axis kept as a column; the
  column is repeated along the row, and the two vectors are laid as one row and repeated down the rows. Read at entry
  `(p, q)` the stored tile is `normRow` of row `p` of the loaded tile, spiked entry by entry.
-/
import proofs.«107565_j77360950935786_2_alg».proof.Proof.RowNorm
import proofs.«107565_j77360950935786_2_alg».proof.Proof.LibKeepdims
import proofs.«107565_j77360950935786_2_alg».proof.Proof.LibKeepdimsCols
import proofs.«107565_j77360950935786_2_alg».proof.Proof.Gen.KernelIdeal.Skeleton
import Idealize.ShloMosaic.Lib.Pipeline.Value

noncomputable section

open scoped BigOperators

namespace Cert.SpikeNorm

open Idealize.ShloMosaic Idealize.ShloMosaic.ValueIdx Cert.KernelIdeal Cert.KernelIdeal.Gen

/-- A tile spiked entry by entry, in the spelling that chooses the range first. -/
def spikedTile (x0 : Vec Ideal S256x4096 .f32) : FVec Ideal S256x4096 .f32 := fun i => spikeRangeFirst (x0 i)

theorem spikedTile_apply (x0 : Vec Ideal S256x4096 .f32) (i : S256x4096.Idx) : spikedTile x0 i = spike (x0 i) :=
  spikeRangeFirst_eq (x0 i)

/-- A lane sum over a tile's rows, kept as a column and divided by the row length, is at row `p` the row's mean. -/
theorem meanColumn_apply (s : FVec Ideal S256x4096 .f32) (p : Fin 256) (u : Fin 1) :
    divf (shapeCast S256x1 (multiReduction .add [1] S256 s 0x00000000#32 reduces_S256x4096_S256 (.inl rfl) rfl) shapeCasts_S256_S256x1)
        (broadcast S256x1 (Scalar.ofBits .f32 0x45800000#32)) (ix2 p u)
      = rowMean (fun d : Fin 4096 => s (ix2 p d)) :=
  congrArg (fun t => Ideal.div t rowLen)
    ((Cert.LibKeepdims.shapeCast_a_a1_apply _ shapeCasts_S256_S256x1 p u).trans
      (Cert.LibKeepdims.multiReduction_add_rows s 0x00000000#32 reduces_S256x4096_S256 (.inl rfl) rfl p))

/-- The first pure term is the spiked tile less, in every row, the row's mean repeated along the row. -/
theorem centered_eq (x0 : Vec Ideal S256x4096 .f32) :
    k0_pay2 x0 = subf (spikedTile x0) (broadcastTo S256x4096
      (divf (shapeCast S256x1 (multiReduction .add [1] S256 (spikedTile x0) 0x00000000#32 reduces_S256x4096_S256 (.inl rfl) rfl) shapeCasts_S256_S256x1)
        (broadcast S256x1 (Scalar.ofBits .f32 0x45800000#32))) broadcasts_S256x1_S256x4096) := by
  unfold k0_pay2
  rw [shapeCast_self]
  rfl

/-- Read at `(p, q)`: the deviation of the spiked entry from its row's mean. -/
theorem centered_apply (x0 : Vec Ideal S256x4096 .f32) (p : Fin 256) (q : Fin 4096) :
    k0_pay2 x0 (ix2 p q) = dev (fun d : Fin 4096 => spike (x0 (ix2 p d))) q := by
  rw [centered_eq]
  refine (congrArg (fun t => spikedTile x0 (ix2 p q) - t)
    ((Cert.LibKeepdims.broadcastTo_a1_ab_apply _ broadcasts_S256x1_S256x4096 p q).trans
      (meanColumn_apply (spikedTile x0) p 0))).trans ?_
  unfold dev
  rw [spikedTile_apply]
  exact congrArg (fun f : Fin 4096 → EReal => spike (x0 (ix2 p q)) - rowMean f)
    (funext fun d => spikedTile_apply x0 (ix2 p d))

/-- The second pure term is, at row `p`, the variance of the spiked row. -/
theorem variance_apply (x0 : Vec Ideal S256x4096 .f32) (p : Fin 256) (u : Fin 1) :
    k0_pay3 x0 (ix2 p u) = rowVar (fun d : Fin 4096 => spike (x0 (ix2 p d))) := by
  refine (meanColumn_apply (mulf (k0_pay2 x0) (k0_pay2 x0)) p u).trans ?_
  unfold rowVar rowMean
  exact congrArg (fun f : Fin 4096 → EReal => Ideal.div (∑ d : Fin 4096, f d) rowLen)
    (funext fun d => congrArg₂ (· * ·) (centered_apply x0 p d) (centered_apply x0 p d))

/-- THE STORED TILE at `(p, q)`: entry `q` of the normalized spiked row `p`, scaled and shifted by the two vectors. -/
theorem tile_apply (x0 : Vec Ideal S256x4096 .f32) (x1 x2 : Vec Ideal S4096 .f32) (p : Fin 256) (q : Fin 4096) :
    k0_pay1 (k0_pay2 x0) (k0_pay3 x0) (Scalar.ofBits .f32 0x3727C5AC#32) x1 x2 (ix2 p q)
      = normRow (fun d : Fin 4096 => spike (x0 (ix2 p d))) (fun d : Fin 4096 => x1 (ix1 d)) (fun d : Fin 4096 => x2 (ix1 d)) q := by
  have hr : broadcastTo S256x4096 (rsqrt (addf (k0_pay3 x0) (broadcast S256x1 (Scalar.ofBits (F := Ideal) .f32 0x3727C5AC#32))))
      broadcasts_S256x1_S256x4096 (ix2 p q) = Ideal.rsqrt (rowVar (fun d : Fin 4096 => spike (x0 (ix2 p d))) + eps) :=
    (Cert.LibKeepdims.broadcastTo_a1_ab_apply _ broadcasts_S256x1_S256x4096 p q).trans
      (congrArg (fun t => Ideal.rsqrt (t + eps)) (variance_apply x0 p 0))
  have hw := Cert.LibKeepdimsCols.broadcastTo_shapeCast_row_apply x1 shapeCasts_S4096_S1x4096 broadcasts_S1x4096_S256x4096 p q
  have hb := Cert.LibKeepdimsCols.broadcastTo_shapeCast_row_apply x2 shapeCasts_S4096_S1x4096 broadcasts_S1x4096_S256x4096 p q
  exact congrArg₂ (· + ·) (congrArg₂ (· * ·) (congrArg₂ (· * ·) (centered_apply x0 p q) hr) hw) hb

end Cert.SpikeNorm

end
-- ==== Proof.KernelArray.lean ====
/-
  From tiles to the whole matrix.

  Grid point `t` of 64 loads rows `256 t … 256 t + 255` of the input matrix and the whole scale and shift vectors,
  and writes back the tile the body stored as rows `256 t … 256 t + 255` of the result matrix. Every entry of that
  tile depends on its own row only, so the tile is those rows of `result2` of the arrays as the region finds them;
  the 64 tiles cover the 16384 rows, so after the run the result matrix is `result2`.
-/
import proofs.«107565_j77360950935786_2_alg».proof.Proof.KernelTile
import proofs.«107565_j77360950935786_2_alg».proof.Proof.Gen.KernelIdeal.Frame
import Idealize.ShloMosaic.Lib.Pipeline.Value

noncomputable section

open scoped BigOperators

namespace Cert.SpikeNorm

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem offs2 : (![0, 0] : Fin 2 → Nat) = fun _ => 0 := funext fun a => by fin_cases a <;> rfl
theorem offs1 : (![0] : Fin 1 → Nat) = fun _ => 0 := funext fun a => by fin_cases a <;> rfl

/-- The stored tile at any entry of the tile, the entry's coordinates read off the index. -/
theorem tile_at (x0 : Vec Ideal S256x4096 .f32) (x1 x2 : Vec Ideal S4096 .f32) (y : S256x4096.Idx) :
    k0_pay1 (k0_pay2 x0) (k0_pay3 x0) (Scalar.ofBits .f32 0x3727C5AC#32) x1 x2 y
      = normRow (fun d : Fin 4096 => spike (x0 (ix2 (n0 := 256) (y 0) d))) (fun d : Fin 4096 => x1 (ix1 d))
          (fun d : Fin 4096 => x2 (ix1 d)) (y 1) := by
  obtain ⟨p, q, rfl⟩ : ∃ (p : Fin 256) (q : Fin 4096), y = ix2 p q := ⟨y 0, y 1, eq_ix2 y⟩
  exact tile_apply x0 x1 x2 p q

/-- The printed index maps over the grid: the input and the result tiles of point `t` are tile `t` of their rows and
    the one tile of their columns; the two vectors have one block. -/
theorem blockIdx : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 1) = 0 ∧ win0_2.index t (0 : Fin 1) = 0 :=
  (by decide +kernel : ∀ t : Fin grid0.N, _)

/-- WHAT POINT `t` WRITES BACK is tile `t` of `result2` of the arrays as the region finds them. -/
theorem flushed_eq (c : Dev nD) (t : Fin cfg0.N) :
    (dats m 0 c).flushed 3 t
      = ((cfg0.win 3).blk t).view.read (Elt Ideal) (result2 (V m c main_v0) (V m c main_arg1) (V m c main_arg2)) := by
  show (cfg0.win 3).cut (grid0.coords t) ((dats m 0 c).after 3 t) = _
  rw [after0_3]
  unfold out0_3
  rw [View.canon_unit_zero offs2]
  simp only [View.ld_unit_zero (S := S256x4096) offs2, View.ld_unit_zero (S := S4096) offs1]
  obtain ⟨a0, a1, b0, b1, w0, s0⟩ := blockIdx t
  funext y
  show k0_pay1 (k0_pay2 (iblk m c 0 t)) (k0_pay3 (iblk m c 0 t)) (Scalar.ofBits .f32 0x3727C5AC#32) (iblk m c 1 t) (iblk m c 2 t) y
      = result2 (V m c main_v0) (V m c main_arg1) (V m c main_arg2) (((cfg0.win 3).blk t).view.emb y)
  refine (tile_at (iblk m c 0 t) (iblk m c 1 t) (iblk m c 2 t) y).trans ?_
  -- the result's column is the tile's column
  have e1 : ((((cfg0.win 3).blk t).view.emb y) 1 : Fin 4096) = y 1 :=
    Fin.ext (by show win0_3.index t (1 : Fin 2) * 4096 + 1 * (y 1).val = (y 1).val; omega)
  -- the input tile's row is the row of the input matrix the result's rectangle names
  have e0 : ∀ d : Fin 4096, iblk m c 0 t (ix2 (n0 := 256) (y 0) d)
      = V m c main_v0 (ix2 (n0 := 16384) ((((cfg0.win 3).blk t).view.emb y) 0) d) := fun d => by
    have hi : ((cfg0.win 0).blk t).view.emb (ix2 (n0 := 256) (y 0) d)
        = ix2 (n0 := 16384) ((((cfg0.win 3).blk t).view.emb y) 0) d := by
      funext a; apply Fin.ext
      match a with
      | ⟨0, _⟩ => show win0_0.index t (0 : Fin 2) * 256 + 1 * (y 0).val = win0_3.index t (0 : Fin 2) * 256 + 1 * (y 0).val; omega
      | ⟨1, _⟩ => show win0_0.index t (1 : Fin 2) * 4096 + 1 * d.val = d.val; omega
    show V m c main_v0 (((cfg0.win 0).blk t).view.emb (ix2 (n0 := 256) (y 0) d)) = _
    rw [hi]
  -- the two vectors' one block is the vector
  have ew : ∀ d : Fin 4096, iblk m c 1 t (ix1 d) = V m c main_arg1 (ix1 d) := fun d => by
    have hi : ((cfg0.win 1).blk t).view.emb (ix1 d) = ix1 d := by
      funext a; apply Fin.ext
      match a with
      | ⟨0, _⟩ => show win0_1.index t (0 : Fin 1) * 4096 + 1 * d.val = d.val; omega
    show V m c main_arg1 (((cfg0.win 1).blk t).view.emb (ix1 d)) = _
    rw [hi]
  have eb : ∀ d : Fin 4096, iblk m c 2 t (ix1 d) = V m c main_arg2 (ix1 d) := fun d => by
    have hi : ((cfg0.win 2).blk t).view.emb (ix1 d) = ix1 d := by
      funext a; apply Fin.ext
      match a with
      | ⟨0, _⟩ => show win0_2.index t (0 : Fin 1) * 4096 + 1 * d.val = d.val; omega
    show V m c main_arg2 (((cfg0.win 2).blk t).view.emb (ix1 d)) = _
    rw [hi]
  show _ = normRow (fun d : Fin 4096 => spike (V m c main_v0 (ix2 (n0 := 16384) ((((cfg0.win 3).blk t).view.emb y) 0) d)))
      (fun d : Fin 4096 => V m c main_arg1 (ix1 d)) (fun d : Fin 4096 => V m c main_arg2 (ix1 d))
      ((((cfg0.win 3).blk t).view.emb y) 1)
  rw [e1, funext ew, funext eb, funext fun d => congrArg spike (e0 d)]

/-- An entry of the result matrix is in point `t`'s tile iff each coordinate is in the tile's range on its axis. -/
theorem mem_tile (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1).slice (win0_3.rect t)).set ↔ _
  rw [View.set_slice_whole, Rect.mem_set_unit]
  exact Iff.rfl

/-- Row `r` of the result matrix is in the tile of point `r / 256`: the tiles cover the matrix. -/
theorem tiles_cover (i : S16384x4096.Idx) :
    ∃ t : Fin cfg0.N, (cfg0.win 3).flush t = true ∧ i ∈ ((cfg0.win 3).blk t).view.set := by
  have hi0 : (i 0).val < 16384 := idx2_lt0 i
  have hi1 : (i 1).val < 4096 := idx2_lt1 i
  obtain ⟨t, ht⟩ : ∃ t : Fin cfg0.N, t.val = (i 0).val / 256 :=
    ⟨⟨(i 0).val / 256, by show (i 0).val / 256 < grid0.N; rw [N_0]; omega⟩, rfl⟩
  obtain ⟨_, _, b0, b1, _, _⟩ := blockIdx t
  refine ⟨t, flush0_3 t, ?_⟩
  rw [mem_tile]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE RESULT MATRIX after the run is `result2` of the arrays as the region finds them. -/
theorem result_matrix (c : Dev nD) :
    (dats m 0 c).arrAt 3 cfg0.N = result2 (V m c main_v0) (V m c main_arg1) (V m c main_arg2) :=
  (dats m 0 c).arrAt_eq_of_cover 3 _ (fun t _ => flushed_eq m c t) tiles_cover

end Cert.SpikeNorm

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.KernelRun.lean ====
/-
  The kernel program's run, read.

  Before the region the host lays the input's `4 × 4096` rows as one matrix of 16384 rows; after it, it splits the
  result matrix's rows back into `4 × 4096`. Row `(i, j)` is row `4096 i + j`, and `result2` works row by row, so the
  program's result is `result3` of its three arguments.
-/
import proofs.«107565_j77360950935786_2_alg».proof.Proof.KernelArray
import proofs.«107565_j77360950935786_2_alg».proof.Proof.LibFlatten
import Idealize.ShloMosaic.Lib.StableHlo.Run

noncomputable section

open scoped BigOperators

namespace Cert.SpikeNorm

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- Splitting the rows of `result2` of the merged rows is `result3`. -/
theorem split_result2_merge (x : S4x4096x4096.Idx → EReal) (w b : S4096.Idx → EReal)
    (hm : S4x4096x4096.ShapeCasts S16384x4096) (hs : S16384x4096.ShapeCasts S4x4096x4096) :
    shapeCast S4x4096x4096 (result2 (shapeCast S16384x4096 x hm) w b) hs = result3 x w b := by
  funext idx
  obtain ⟨i, j, k, rfl⟩ : ∃ (i : Fin 4) (j k : Fin 4096), idx = ix3 i j k := ⟨idx 0, idx 1, idx 2, eq_ix3 idx⟩
  have hr : i.val * 4096 + j.val < 16384 := by have := i.isLt; have := j.isLt; omega
  rw [Cert.LibFlatten.shapeCast_nc_abc_apply _ hs i j k ⟨i.val * 4096 + j.val, hr⟩ rfl, result2_apply, result3_apply]
  exact congrArg (fun s : Fin 4096 → EReal => normRow s (fun d : Fin 4096 => w (ix1 d)) (fun d : Fin 4096 => b (ix1 d)) k)
    (funext fun d => congrArg spike
      (Cert.LibFlatten.shapeCast_abc_nc_apply x hm i j d ⟨i.val * 4096 + j.val, hr⟩ rfl))

/-- The matrix the region finds is the input's rows merged. -/
theorem entry_matrix (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results
  rfl

/-- The program's result is the result matrix's rows split. -/
theorem tail_result (c : Dev nD) :
    (Pipeline.afterTail₀ cfgs (dats m) 0 (V0 m) [hostOps1] c main_v2 : S4x4096x4096.Idx → EReal)
      = shapeCast S4x4096x4096 ((dats m 0 c).arrAt 3 cfg0.N) shapeCasts_S16384x4096_S4x4096x4096 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1)
      = (dats m 0 c).arrAt 3 cfg0.N from
    Pipeline.withArrays_arr spec0 launch0.win.arr_inj c (V0 m c) (fun w => (dats m 0 c).arrAt w cfg0.N) 3]
  rfl

/-- So the program's result is `result3` of its arguments as launched. -/
theorem result_value (c : Dev nD) :
    (Pipeline.afterTail₀ cfgs (dats m) 0 (V0 m) [hostOps1] c main_v2 : S4x4096x4096.Idx → EReal)
      = result3 (m ((c : Thread nD τ).loc main_arg0)) (m ((c : Thread nD τ).loc main_arg1)) (m ((c : Thread nD τ).loc main_arg2)) := by
  rw [tail_result, result_matrix, entry_matrix, V_main_arg1, V_main_arg2]
  exact split_result2_merge _ _ _ _ _

/-- THE RUN, READ: every weakly fair execution of the kernel program terminates with its result at `result3` of the
    arguments and the arguments unchanged. -/
theorem run : θ_run defs (onTc (τ := τ) (main (F := Ideal))) ⟨m, fun _ => 0, ρ⟩ fun r => ∀ c : Dev nD,
      r.2.mem ((c.tc : Thread nD τ).loc main_v2)
        = result3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.SpikeNorm

end
-- ==== Proof.ReferenceValue.lean ====
/-
  The reference's result is `result3` of its three arguments.

  The reference clips, takes sign and magnitude, quantizes the magnitude on both ranges and chooses, multiplies by the
  sign, and normalizes each row of the last axis: the row's sum from zero over 4096 kept as a unit axis and repeated
  along the row, the deviations, their squares' sum over 4096, the reciprocal square root of that plus `ε`, and the
  scale and shift vectors laid along the last axis. Read at `(i, j, k)` every stage depends on row `(i, j)` only.
-/
import proofs.«107565_j77360950935786_2_alg».proof.Proof.RowNorm
import proofs.«107565_j77360950935786_2_alg».proof.Proof.Gen.ReferenceIdeal.Read

noncomputable section

open scoped BigOperators

namespace Cert.SpikeNorm

open Idealize.ShloMosaic Idealize.ShloMosaic.ValueIdx Cert.ReferenceIdeal Cert.ReferenceIdeal.Read

/-! ## Where each layout stage reads its operand -/

theorem sumIdx_eq (i : Fin 4) (j : Fin 4096) (u : Fin 1) (k : Fin 4096) :
    idx_main_v33 (idx_main_v34 (ix3 i j u)) k = ix3 i j k :=
  funext fun a => Fin.ext (by match a with | ⟨0, _⟩ => rfl | ⟨1, _⟩ => rfl | ⟨2, _⟩ => rfl)
theorem sqSumIdx_eq (i : Fin 4) (j : Fin 4096) (u : Fin 1) (k : Fin 4096) :
    idx_main_v40 (idx_main_v41 (ix3 i j u)) k = ix3 i j k :=
  funext fun a => Fin.ext (by match a with | ⟨0, _⟩ => rfl | ⟨1, _⟩ => rfl | ⟨2, _⟩ => rfl)
theorem meanIdx_eq (i : Fin 4) (j k : Fin 4096) : idx_main_v37 (ix3 i j k) = ix3 i j (0 : Fin 1) :=
  funext fun a => Fin.ext (by match a with | ⟨0, _⟩ => rfl | ⟨1, _⟩ => rfl | ⟨2, _⟩ => rfl)
theorem meanIdx'_eq (i : Fin 4) (j k : Fin 4096) : idx_main_v44 (ix3 i j k) = ix3 i j (0 : Fin 1) :=
  funext fun a => Fin.ext (by match a with | ⟨0, _⟩ => rfl | ⟨1, _⟩ => rfl | ⟨2, _⟩ => rfl)
theorem rsqrtIdx_eq (i : Fin 4) (j k : Fin 4096) : idx_main_v49 (ix3 i j k) = ix3 i j (0 : Fin 1) :=
  funext fun a => Fin.ext (by match a with | ⟨0, _⟩ => rfl | ⟨1, _⟩ => rfl | ⟨2, _⟩ => rfl)
theorem scaleIdx_eq (i : Fin 4) (j k : Fin 4096) : idx_main_v51 (idx_main_v52 (ix3 i j k)) = ix1 k :=
  funext fun a => Fin.ext (by match a with | ⟨0, _⟩ => rfl)
theorem shiftIdx_eq (i : Fin 4) (j k : Fin 4096) : idx_main_v54 (idx_main_v55 (ix3 i j k)) = ix1 k :=
  funext fun a => Fin.ext (by match a with | ⟨0, _⟩ => rfl)

/-! ## The stages at an index -/

/-- The spiked array, entry by entry. -/
theorem ref_spiked (x0 : (⟨S4x4096x4096, .f32⟩ : BufTy).Contents (Elt Ideal)) (i : S4x4096x4096.Idx) :
    val_main_v32 (F := Ideal) x0 i = spike (x0 i) := by
  refine Eq.trans ?_ (spikeBothRanges_eq (x0 i))
  simp only [val_main_v32_apply, val_main_v31_apply, val_main_v1_apply, val_main_v0_apply, val_main_call0_v4_apply, val_main_call0_v3_apply, val_main_call0_v2_apply, val_main_call0_v1_apply, val_main_call0_v0_apply, val_main_v4_apply, val_main_v2_apply, val_main_v3_apply, val_main_v17_apply, val_main_v15_apply, val_main_v13_apply, val_main_v11_apply, val_main_v10_apply, val_main_v8_apply, val_main_v6_apply, val_main_v5_apply, val_main_v7_apply, val_main_v9_apply, val_main_v12_apply, val_main_v14_apply, val_main_v16_apply, val_main_v30_apply, val_main_v28_apply, val_main_v26_apply, val_main_v24_apply, val_main_v23_apply, val_main_v21_apply, val_main_v19_apply, val_main_v18_apply, val_main_v20_apply, val_main_v22_apply, val_main_v25_apply, val_main_v27_apply, val_main_v29_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply]
  rfl

/-- The row means, kept as a unit axis. -/
theorem ref_mean (x0 : (⟨S4x4096x4096, .f32⟩ : BufTy).Contents (Elt Ideal)) (i : Fin 4) (j : Fin 4096) (u : Fin 1) :
    val_main_v36 (F := Ideal) x0 (ix3 i j u) = rowMean (fun d : Fin 4096 => spike (x0 (ix3 i j d))) := by
  rw [val_main_v36_apply, val_main_v34_apply, val_main_v33_apply, val_main_v35_apply, val_main_cst_15_apply,
    val_main_cst_14_apply]
  simp only [sumIdx_eq, ref_spiked]
  show Ideal.div (Ideal.ofBits .f32 0x00000000#32 + _) rowLen = _
  rw [Ideal.ofBits_zero_f32, zero_add]
  rfl

/-- The deviations (the stage the squares are taken of). -/
theorem ref_dev (x0 : (⟨S4x4096x4096, .f32⟩ : BufTy).Contents (Elt Ideal)) (i : Fin 4) (j k : Fin 4096) :
    val_main_v38 (F := Ideal) x0 (ix3 i j k) = dev (fun d : Fin 4096 => spike (x0 (ix3 i j d))) k := by
  rw [val_main_v38_apply, val_main_v37_apply, meanIdx_eq, ref_mean, ref_spiked]
  rfl

/-- The deviations (the stage that is normalized: the same subtraction again). -/
theorem ref_dev' (x0 : (⟨S4x4096x4096, .f32⟩ : BufTy).Contents (Elt Ideal)) (i : Fin 4) (j k : Fin 4096) :
    val_main_v45 (F := Ideal) x0 (ix3 i j k) = dev (fun d : Fin 4096 => spike (x0 (ix3 i j d))) k := by
  rw [val_main_v45_apply, val_main_v44_apply, meanIdx'_eq, ref_mean, ref_spiked]
  rfl

/-- The row variances, kept as a unit axis. -/
theorem ref_var (x0 : (⟨S4x4096x4096, .f32⟩ : BufTy).Contents (Elt Ideal)) (i : Fin 4) (j : Fin 4096) (u : Fin 1) :
    val_main_v43 (F := Ideal) x0 (ix3 i j u) = rowVar (fun d : Fin 4096 => spike (x0 (ix3 i j d))) := by
  rw [val_main_v43_apply, val_main_v41_apply, val_main_v40_apply, val_main_v42_apply, val_main_cst_17_apply,
    val_main_cst_16_apply]
  simp only [sqSumIdx_eq, val_main_v39_apply, ref_dev]
  show Ideal.div (Ideal.ofBits .f32 0x00000000#32 + _) rowLen = _
  rw [Ideal.ofBits_zero_f32, zero_add]
  rfl

/-- THE REFERENCE'S RESULT is `result3` of the arguments. -/
theorem reference_eq (x0 : (⟨S4x4096x4096, .f32⟩ : BufTy).Contents (Elt Ideal))
    (x1 x2 : (⟨S4096, .f32⟩ : BufTy).Contents (Elt Ideal)) :
    val_main_v56 (F := Ideal) x0 x1 x2 = result3 x0 x1 x2 := by
  funext idx
  obtain ⟨i, j, k, rfl⟩ : ∃ (i : Fin 4) (j k : Fin 4096), idx = ix3 i j k := ⟨idx 0, idx 1, idx 2, eq_ix3 idx⟩
  rw [result3_apply, val_main_v56_apply, val_main_v53_apply, val_main_v50_apply, ref_dev', val_main_v49_apply,
    rsqrtIdx_eq, val_main_v48_apply, val_main_v47_apply, ref_var, val_main_v46_apply, val_main_cst_18_apply,
    val_main_v52_apply, val_main_v51_apply, scaleIdx_eq, val_main_v55_apply, val_main_v54_apply, shiftIdx_eq]
  rfl

end Cert.SpikeNorm

end
-- ==== Proof.lean ====
/- The proof of `Cert.Claim` (proofs.«107565_j77360950935786_2_alg».proof.Defs).

   Both programs spike every entry of a `[4, 4096, 4096]` input — clip to `[-500, 500]`, quantize the magnitude on
   `2¹⁶` levels of the range `10` (below `10`) or `500`, cap at the range times `1 - 2⁻¹⁶`, restore the sign — and
   normalize each row of the last axis, with a scale and a shift vector. The kernel program lays the rows as one matrix,
   works on tiles of 256 rows, chooses the range before quantizing and takes the sign by comparisons; the reference
   quantizes on both ranges and chooses a result. On the extended reals the two results are one function, `result3`
   (Proof/RowNorm.lean over Proof/Quantizer.lean): the kernel's tile at an entry (Proof/KernelTile.lean), the tiles as
   the whole matrix (Proof/KernelArray.lean), the row merge and split around it (Proof/KernelRun.lean), the reference's
   stages at an index (Proof/ReferenceValue.lean). No step needs the inputs finite: a magnitude is never negative, a
   choice commutes with what is computed from the chosen value, the two caps are exact products, and both programs
   take the same sums and quotients in the same order. The frames are the programs' runs; the one idealization of the
   kernel, the sign read off the sign bit, is its rule's statement. -/
import proofs.«107565_j77360950935786_2_alg».proof.Defs
import proofs.«107565_j77360950935786_2_alg».proof.Proof.KernelRun
import proofs.«107565_j77360950935786_2_alg».proof.Proof.ReferenceValue
import proofs.«107565_j77360950935786_2_alg».proof.Proof.Gen.Kernel
import proofs.«107565_j77360950935786_2_alg».proof.Proof.Gen.Kernel.Skeleton
import proofs.«107565_j77360950935786_2_alg».proof.Proof.Gen.Kernel.Launch
import proofs.«107565_j77360950935786_2_alg».proof.Proof.Gen.Kernel.Points
import proofs.«107565_j77360950935786_2_alg».proof.Proof.Gen.Kernel.Frame
import proofs.«107565_j77360950935786_2_alg».proof.Proof.Gen.KernelIdeal
import proofs.«107565_j77360950935786_2_alg».proof.Proof.Gen.KernelIdeal.Skeleton
import proofs.«107565_j77360950935786_2_alg».proof.Proof.Gen.KernelIdeal.Launch
import proofs.«107565_j77360950935786_2_alg».proof.Proof.Gen.KernelIdeal.Points
import proofs.«107565_j77360950935786_2_alg».proof.Proof.Gen.KernelIdeal.Frame
import proofs.«107565_j77360950935786_2_alg».proof.Proof.Gen.ReferenceIdeal
import proofs.«107565_j77360950935786_2_alg».proof.Proof.Gen.ReferenceIdeal.Run
import proofs.«107565_j77360950935786_2_alg».proof.Proof.Gen.ReferenceIdeal.Read
import proofs.«107565_j77360950935786_2_alg».proof.Proof.Gen.Pre_finite_inputs
import Idealize.ShloMosaic.Adequacy
import Idealize.ShloMosaic.Init

noncomputable section

namespace Cert.Proof

open Idealize.ShloMosaic Idealize.SL.Sem

/-- The kernel program as printed runs, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one idealization: `1.0` carrying the clipped input's sign bit is `-1` below zero and `1` elsewhere. -/
theorem preserves : Cert.preserves_Kernel_KernelIdeal :=
  IdealRules.sign_bit.statement Cert.KernelIdeal.S256x4096 .f32

/-- From memories that agree on the arguments the two programs end with one result, `result3` of the arguments. -/
theorem algebraic : Cert.algebraic_KernelIdeal_ReferenceIdeal := by
  intro m ρ m' ρ' _ hagree
  refine ⟨fun c => Cert.SpikeNorm.result3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.SpikeNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.SpikeNorm.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
